-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x128 : Shape := ⟨2, ![1024, 128]⟩
abbrev S_ : Shape := ⟨0, ![]⟩

class Facts : Prop where
  bcast_S_S1024x128 : S_.BroadcastsInDim S1024x128 (![] : Fin 0 → Fin S1024x128.rank)
  reducesTo_S1024x128_S_d0_1 : S1024x128.ReducesTo [0, 1] S_
  h_S_ : 0 < S_.numel

variable [Facts]

def fn {F : FTy → Type} [FloatOps F] (main_arg0 : FVec F S1024x128 .f32) (main_arg1 : FVec F S1024x128 .f32) : IVec S_ 1 :=
  let main_v0 : FVec F S1024x128 .f32 := Host.absf main_arg0
  let main_cst : FVec F S_ .f32 := constant S_ .f32 0x7F800000#32
  let main_v1 : FVec F S1024x128 .f32 := broadcastInDim S1024x128 ![] bcast_S_S1024x128 main_cst
  let main_v2 : IVec S1024x128 1 := cmpf .olt main_v0 main_v1
  let main_c : IVec S_ 1 := constantI S_ 1 1#1
  let main_v3 : IVec S_ 1 := (fun x v => Host.reduce IntOp.andi x v reducesTo_S1024x128_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  main_v8
-- ==== Kernel.lean ====
abbrev S1024x128 : Shape := ⟨2, ![1024, 128]⟩
abbrev S_ : Shape := ⟨0, ![]⟩
abbrev S1024 : Shape := ⟨1, ![1024]⟩
abbrev S1024x1 : Shape := ⟨2, ![1024, 1]⟩
abbrev S1024x1024 : Shape := ⟨2, ![1024, 1024]⟩
abbrev S128x128 : Shape := ⟨2, ![128, 128]⟩
abbrev S128x1x128 : Shape := ⟨3, ![128, 1, 128]⟩
abbrev S1x128x128 : Shape := ⟨3, ![1, 128, 128]⟩
abbrev S128x128x128 : Shape := ⟨3, ![128, 128, 128]⟩
abbrev S128x128x1 : Shape := ⟨3, ![128, 128, 1]⟩

abbrev nBuf : Space → Nat
  | .hbm => 14
  | .vmem => 10
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S1024x1024, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S1024x128_S1024_d1 : S1024x128.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  shapeCasts_S128x128_S128x128x1 : S128x128.ShapeCasts S128x128x1
  shapeCasts_S128x128x1_S128x128 : S128x128x1.ShapeCasts S128x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S1024x128.size a
  hwx0_0 : ∀ i : grid0.Coords, EltTy.bits .f32 = 32 ∨ (Rect.block (s := S1024x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S1024x128.size a
  hwx0_1 : ∀ i : grid0.Coords, EltTy.bits .f32 = 32 ∨ (Rect.block (s := S1024x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S1024x128.size a
  hwx0_2 : ∀ i : grid0.Coords, EltTy.bits .f32 = 32 ∨ (Rect.block (s := S1024x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S1024x128.size a
  hwx0_3 : ∀ i : grid0.Coords, EltTy.bits .f32 = 32 ∨ (Rect.block (s := S1024x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S1024x1024.size a
  hwx0_4 : ∀ i : grid0.Coords, EltTy.bits .f32 = 32 ∨ (Rect.block (s := S1024x1024) S128x128.size (cc0_transform_4 i) (hinb0_4 i)).WholeWords (EltTy.packing .f32)

variable [Facts₀]

abbrev win0_0 : Pipeline.Window sig grid0 :=
  Pipeline.Window.ofSpec (Memref.whole main_v4) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x128 : Shape := ⟨2, ![1024, 128]⟩
abbrev S_ : Shape := ⟨0, ![]⟩
abbrev S1024 : Shape := ⟨1, ![1024]⟩
abbrev S1024x1 : Shape := ⟨2, ![1024, 1]⟩
abbrev S1024x1x128 : Shape := ⟨3, ![1024, 1, 128]⟩
abbrev S1x1024x128 : Shape := ⟨3, ![1, 1024, 128]⟩
abbrev S1024x1024x128 : Shape := ⟨3, ![1024, 1024, 128]⟩
abbrev S1024x1024 : Shape := ⟨2, ![1024, 1024]⟩

abbrev nBuf : Space → Nat
  | .hbm => 33
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S1024x1x128, .f32⟩
  | .hbm, ⟨14, _⟩ => ⟨S1x1024x128, .f32⟩
  | .hbm, ⟨15, _⟩ => ⟨S1024x1024x128, .f32⟩
  | .hbm, ⟨16, _⟩ => ⟨S1024x1024x128, .f32⟩
  | .hbm, ⟨17, _⟩ => ⟨S1024x1024x128, .f32⟩
  | .hbm, ⟨18, _⟩ => ⟨S1024x1x128, .f32⟩
  | .hbm, ⟨19, _⟩ => ⟨S1x1024x128, .f32⟩
  | .hbm, ⟨20, _⟩ => ⟨S1024x1024x128, .f32⟩
  | .hbm, ⟨21, _⟩ => ⟨S1024x1024x128, .f32⟩
  | .hbm, ⟨22, _⟩ => ⟨S1024x1024x128, .f32⟩
  | .hbm, ⟨23, _⟩ => ⟨S1024x1024x128, .f32⟩
  | .hbm, ⟨24, _⟩ => ⟨S_, .f32⟩
  | .hbm, ⟨25, _⟩ => ⟨S1024x1024x128, .f32⟩
  | .hbm, ⟨26, _⟩ => ⟨S1024x1024x128, .f32⟩
  | .hbm, ⟨27, _⟩ => ⟨S1024x1024x128, .f32⟩
  | .hbm, ⟨28, _⟩ => ⟨S1024x1024x128, .f32⟩
  | .hbm, ⟨29, _⟩ => ⟨S1024x1024x128, .f32⟩
  | .hbm, ⟨30, _⟩ => ⟨S_, .f32⟩
  | .hbm, ⟨31, _⟩ => ⟨S1024x1024, .f32⟩
  | .hbm, ⟨32, _⟩ => ⟨S1024x1024, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  reducesTo_S1024x128_S1024_d1 : S1024x128.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x128_0_1 : S1024x1.BroadcastsInDim S1024x128 (![0, 1] : Fin 2 → Fin S1024x128.rank)
  bcast_S1024x128_S1024x1x128_0_2 : S1024x128.BroadcastsInDim S1024x1x128 (![0, 2] : Fin 2 → Fin S1024x1x128.rank)
  bcast_S1024x128_S1x1024x128_1_2 : S1024x128.BroadcastsInDim S1x1024x128 (![1, 2] : Fin 2 → Fin S1x1024x128.rank)
  bcast_S1024x1x128_S1024x1024x128_0_1_2 : S1024x1x128.BroadcastsInDim S1024x1024x128 (![0, 1, 2] : Fin 3 → Fin S1024x1024x128.rank)
  bcast_S1x1024x128_S1024x1024x128_0_1_2 : S1x1024x128.BroadcastsInDim S1024x1024x128 (![0, 1, 2] : Fin 3 → Fin S1024x1024x128.rank)
  bcast_S_S1024x1024x128 : S_.BroadcastsInDim S1024x1024x128 (![] : Fin 0 → Fin S1024x1024x128.rank)
  reducesTo_S1024x1024x128_S1024x1024_d2 : S1024x1024x128.ReducesTo [2] S1024x1024

variable [Facts₀]

class Facts : Prop extends Facts₀ where

variable [Facts]
-- ==== Proof.RegionBits.lean ====
/-
  The word-level kernel's run and frame: the same program read at machine words, the same proof.

  The program normalises the rows of its first argument and exponentiates its second on the host, then a grid of
  8 × 8 points computes the 1024 × 1024 pairwise score tile by tile: point (i, j) reads row block i and row block j of
  the normalised rows and of the exponentials (four input windows over TWO arrays) and writes tile (i, j) of the result.
  Here: what the region finds in every buffer, what each staging buffer holds at each point, the body's triple, the
  proof data — each shared array's full share dealt in two halves, one per window reading it —, the run, and the frame.
  Everything is stated at any float instance.
-/
import proofs.«149449_j12326556139627_1_alg».proof.Proof.Gen.Kernel.Launch
import proofs.«149449_j12326556139627_1_alg».proof.Proof.Gen.Kernel.Skeleton
import proofs.«149449_j12326556139627_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region

The program first normalises the rows of its first argument and exponentiates the second, on the host; the region
then reads the two results. `V` is what every buffer of a core holds when the region is entered. -/

/-- A core's buffers when the region is entered: the launch contents after the two lines of host operations. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- The program up to the region is the two lines of host operations. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at grid point `t`, read off its array as the region finds it. Windows 0 and 1 both read the
    normalised rows (at the row block of the first and of the second grid coordinate), windows 2 and 3 both read the
    exponentials likewise, window 4 is the 128 × 128 tile of the result. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: when it is not
    fetched its block index has not moved, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the result tile -/

abbrev r0_0 : Rect S128x128 := Rect.unit (s := S128x128) ![0, 0] S128x128.size inb_S128x128_S128x128_0_0

/-- The result window's staging buffer after the body, from the four input blocks: one store of the whole tile. -/
def out0_4 (x0 x1 x2 x3 : Vec F S128x128 .f32) : Vec F S128x128 .f32 :=
  View.canon [⟨r0_0, k0_pay1 (View.ld x0 r0_0) (View.ld x1 r0_0) (View.ld x2 r0_0) (View.ld x3 r0_0)⟩]

/-- That store covers the tile. -/
theorem cover0_4 (p0 : Vec F S128x128 .f32) (y : S128x128.Idx) :
    ∃ pc ∈ ([⟨r0_0, p0⟩] : List (View.Piece (Elt F) S128x128 .f32)), y ∈ pc.1.set :=
  View.cover_of_tiled [⟨r0_0, p0⟩] S128x128.size (by rfl) y

/-! ## The body's triple -/

set_option maxHeartbeats 1000000 in
/-- The body on whole staging buffers, the four inputs' at contents `x0 … x3` and the result's at anything, runs to
    the continuation holding the inputs' as they were and the result's at `out0_4` of them. (It also loads the result
    buffer before storing into it; the loaded value is not used.) -/
theorem sound_kernel (c : Dev nD) (E : Set ℕ) (i : grid0.Coords)
    (arg2 : Memref sig .tc .vmem S128x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S128x128 .f32) (harg6 : arg6.IsWhole)
    (x0 x1 x2 x3 : Vec F S128x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__mls_kernel i arg2 harg2 arg3 harg3 arg4 harg4 arg5 harg5 arg6 harg6) K := by
  simp only [cc0__mls_kernel_eq_skeleton]; unfold cc0__mls_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the one pipeline on core `c`: the arrays as the region finds them; after the body at point
    `t` each input's buffer at its block and the result's at `out0_4` of the four input blocks; the invariant the
    core's scoped buffers that are no staging buffer, untouched; nothing owed. The normalised rows are read through TWO windows
    and so are the exponentials: each pair deals the array's full share in two halves, one per window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch

Two pairs of input windows read one array each. The launch hands the pipeline every array's buffer whole; each shared
one is dealt to its two windows in halves, and since no input array is ever written the halves are never joined back
inside the region. -/

/-- The buffers behind the windows' arrays are three: the normalised rows, the exponentials, the result. -/
theorem arrRefs_eq : Finset.univ.image (Pipeline.arrRef spec0) = [main_v4, main_v5, main_v6].toFinset := by decide

/-- Window by window, the array as the proof data hold it at entry is the array's buffer at the window's share. -/
theorem arr0 (c : Dev nD) :
    ((cfg0.win 0).arr.view.loc (c.tc : Thread nD τ) ↦[(cfg0.win 0).arr.view.set]{(dats m 0 c).share 0} (dats m 0 c).arrAt 0 0 : sProp 𝕄)
      = (((c.tc : Thread nD τ).loc main_v4) ↦{fullShare.left} V m c main_v4) := by
  rw [(arr_whole0 0).set_eq_univ]; rfl
theorem arr1 (c : Dev nD) :
    ((cfg0.win 1).arr.view.loc (c.tc : Thread nD τ) ↦[(cfg0.win 1).arr.view.set]{(dats m 0 c).share 1} (dats m 0 c).arrAt 1 0 : sProp 𝕄)
      = (((c.tc : Thread nD τ).loc main_v4) ↦{fullShare.right} V m c main_v4) := by
  rw [(arr_whole0 1).set_eq_univ]; rfl
theorem arr2 (c : Dev nD) :
    ((cfg0.win 2).arr.view.loc (c.tc : Thread nD τ) ↦[(cfg0.win 2).arr.view.set]{(dats m 0 c).share 2} (dats m 0 c).arrAt 2 0 : sProp 𝕄)
      = (((c.tc : Thread nD τ).loc main_v5) ↦{fullShare.left} V m c main_v5) := by
  rw [(arr_whole0 2).set_eq_univ]; rfl
theorem arr3 (c : Dev nD) :
    ((cfg0.win 3).arr.view.loc (c.tc : Thread nD τ) ↦[(cfg0.win 3).arr.view.set]{(dats m 0 c).share 3} (dats m 0 c).arrAt 3 0 : sProp 𝕄)
      = (((c.tc : Thread nD τ).loc main_v5) ↦{fullShare.right} V m c main_v5) := by
  rw [(arr_whole0 3).set_eq_univ]; rfl
theorem arr4 (c : Dev nD) :
    ((cfg0.win 4).arr.view.loc (c.tc : Thread nD τ) ↦[(cfg0.win 4).arr.view.set]{(dats m 0 c).share 4} (dats m 0 c).arrAt 4 0 : sProp 𝕄)
      = (((c.tc : Thread nD τ).loc main_v6) ↦{fullShare} V m c main_v6) := by
  rw [(arr_whole0 4).set_eq_univ]; rfl

/-- The buffers behind the arrays, one by one. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_v4) ↦{fullShare} V m c main_v4) ∗ (((c.tc : Thread nD τ).loc main_v5) ↦{fullShare} V m c main_v5)
          ∗ (((c.tc : Thread nD τ).loc main_v6) ↦{fullShare} V m c main_v6)) := by
  unfold Pipeline.arrBufs
  exact bigSep_eq_bigSepL_of_eq [main_v4, main_v5, main_v6] arrRefs_eq (by decide) _

/-- The invariant is the same at every point: the core's scoped buffers that are no staging buffer. -/
theorem Phi_eq (c : Dev nD) (t : Fin (cfg0.N + 1)) :
    (dats m 0 c).Φ t = Pipeline.scopedRest (Ix := Unit) (Name := ℕ) (U := UR sig nD τ) (Lvl := ℕ) (Val := Elt F) (cfgs 0).spec c := rfl

/-- The arrays' buffers, whole at the region-entry contents, make the proof data's arrays at entry: a full share is
    its left half beside its right half. -/
theorem arrays_dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0, arr0, arr1, arr2, arr3, arr4]
  iintro ⟨H4, H5, H6⟩
  ihave H4' := (pointsTo_share (PosShare.mem_left_op_right fullShare)).1 $$ H4
  icases H4' with ⟨H4l, H4r⟩
  ihave H5' := (pointsTo_share (PosShare.mem_left_op_right fullShare)).1 $$ H5
  icases H5' with ⟨H5l, H5r⟩
  isplitl [H4l]; · iexact H4l
  isplitl [H4r]; · iexact H4r
  isplitl [H5l]; · iexact H5l
  isplitl [H5r]; · iexact H5r
  iexact H6

/-- The unscoped buffers that are no window's array bypass the region. -/
theorem rest_bypass (c : Dev nD) :
    (Pipeline.unscopedRest (Ix := Unit) (Name := ℕ) (U := UR sig nD τ) (Lvl := ℕ) (cfgs 0).spec c (V m c) : sProp 𝕄)
      ⊢ iprop(emp ∗ Pipeline.unscopedRest (Ix := Unit) (Name := ℕ) (U := UR sig nD τ) (Lvl := ℕ) (cfgs 0).spec c (V m c)) := by
  iintro H
  isplitr
  · iempintro
  · iexact H

/-- The scoped rest enters the invariant, -/
theorem inv_in (c : Dev nD) :
    (iprop(emp ∗ Pipeline.scopedRest (Ix := Unit) (Name := ℕ) (U := UR sig nD τ) (Lvl := ℕ) (Val := Elt F) (cfgs 0).spec c) : sProp 𝕄)
      ⊢ (dats m 0 c).Φ 0 := by
  rw [Phi_eq]
  iintro ⟨-, H⟩
  iexact H

/-- and leaves it after the last point. -/
theorem inv_out (c : Dev nD) :
    ((dats m 0 c).Φ (Fin.last (cfgs 0).N) : sProp 𝕄)
      ⊢ iprop(emp ∗ Pipeline.scopedRest (Ix := Unit) (Name := ℕ) (U := UR sig nD τ) (Lvl := ℕ) (Val := Elt F) (cfgs 0).spec c) := by
  rw [Phi_eq]
  iintro H
  isplitr
  · iempintro
  · iexact H

/-- The bypassing buffers, read against the final memory, hold what the region found in them. -/
theorem rest_read (c : Dev nD) (s' : Phys nD τ sig (Elt F)) :
    (iprop(emp ∗ Pipeline.unscopedRest (Ix := Unit) (Name := ℕ) (U := UR sig nD τ) (Lvl := ℕ) (cfgs 0).spec c (V m c) ∗ SI s') : sProp 𝕄)
      ⊢ |={Set.univ}=> iprop(⌜∀ b ∈ Pipeline.restRefs sig (cfgs 0).spec, s'.mem.mem ((c.tc : Thread nD τ).loc b) = V m c b⌝ ∗ SI s') := by
  iintro ⟨-, HU, HSI⟩
  unfold Pipeline.unscopedRest
  imodintro
  iapply (pointsTo_read_all (Pipeline.restRefs sig (cfgs 0).spec) (fun b => (c.tc : Thread nD τ).loc b) (V m c) s')
  isplitl [HU] <;> iassumption

set_option backward.isDefEq.respectTransparency.types false in
/-- THE RUN: from any memory with zero counters every weakly fair execution of the program terminates, and every final
    state has each window's array at what the write-backs made of it and every other unscoped buffer as the region
    found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none) (hsplit := arrays_dealt m)
    (X := fun _ => iprop(emp)) (Y := fun _ => iprop(emp))
    (Z := fun c => Pipeline.unscopedRest (Ix := Unit) (Name := ℕ) (U := UR sig nD τ) (Lvl := ℕ) (cfgs 0).spec c (V m c))
    (hX := rest_bypass m) (hin := inv_in m) (hout := inv_out m)
    (QY := fun c s => ∀ b ∈ Pipeline.restRefs sig (cfgs 0).spec, s.mem ((c.tc : Thread nD τ).loc b) = V m c b)
    (hY := rest_read m)
    (hQ := fun s h c => ⟨(h c).1, (h c).2⟩)

/-- info: 'Cert.Kernel.Region.run_main' depends on axioms: [propext, Classical.choice, Quot.sound] -/
#guard_msgs in #print axioms run_main

/-! ## The frame -/

theorem main_arg0_rest : main_arg0 ∈ Pipeline.restRefs sig spec0 :=
  Pipeline.mem_restRefs_of main_arg0 rfl (by decide)
theorem main_arg1_rest : main_arg1 ∈ Pipeline.restRefs sig spec0 :=
  Pipeline.mem_restRefs_of main_arg1 rfl (by decide)

/-- The program runs to the end, faults nowhere, and leaves its two argument arrays as launched: no window stages them
    and no host operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 main_arg0_rest).trans (V_main_arg0 m c),
    ((h c).2 main_arg1 main_arg1_rest).trans (V_main_arg1 m c)⟩) (run_main m ρ)

end Cert.Kernel.Region

end
-- ==== Proof.RegionIdeal.lean ====
/-
  The idealized kernel's run and frame.

  The program normalises the rows of its first argument and exponentiates its second on the host, then a grid of
  8 × 8 points computes the 1024 × 1024 pairwise score tile by tile: point (i, j) reads row block i and row block j of
  the normalised rows and of the exponentials (four input windows over TWO arrays) and writes tile (i, j) of the result.
  Here: what the region finds in every buffer, what each staging buffer holds at each point, the body's triple, the
  proof data — each shared array's full share dealt in two halves, one per window reading it —, the run, and the frame.
  Everything is stated at any float instance.
-/
import proofs.«149449_j12326556139627_1_alg».proof.Proof.Gen.KernelIdeal.Launch
import proofs.«149449_j12326556139627_1_alg».proof.Proof.Gen.KernelIdeal.Skeleton
import proofs.«149449_j12326556139627_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region

The program first normalises the rows of its first argument and exponentiates the second, on the host; the region
then reads the two results. `V` is what every buffer of a core holds when the region is entered. -/

/-- A core's buffers when the region is entered: the launch contents after the two lines of host operations. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- The program up to the region is the two lines of host operations. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes the first argument: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- Nor the second. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at grid point `t`, read off its array as the region finds it. Windows 0 and 1 both read the
    normalised rows (at the row block of the first and of the second grid coordinate), windows 2 and 3 both read the
    exponentials likewise, window 4 is the 128 × 128 tile of the result. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: when it is not
    fetched its block index has not moved, and the body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the result tile -/

abbrev r0_0 : Rect S128x128 := Rect.unit (s := S128x128) ![0, 0] S128x128.size inb_S128x128_S128x128_0_0

/-- The result window's staging buffer after the body, from the four input blocks: one store of the whole tile. -/
def out0_4 (x0 x1 x2 x3 : Vec F S128x128 .f32) : Vec F S128x128 .f32 :=
  View.canon [⟨r0_0, k0_pay1 (View.ld x0 r0_0) (View.ld x1 r0_0) (View.ld x2 r0_0) (View.ld x3 r0_0)⟩]

/-- That store covers the tile. -/
theorem cover0_4 (p0 : Vec F S128x128 .f32) (y : S128x128.Idx) :
    ∃ pc ∈ ([⟨r0_0, p0⟩] : List (View.Piece (Elt F) S128x128 .f32)), y ∈ pc.1.set :=
  View.cover_of_tiled [⟨r0_0, p0⟩] S128x128.size (by rfl) y

/-! ## The body's triple -/

set_option maxHeartbeats 1000000 in
/-- The body on whole staging buffers, the four inputs' at contents `x0 … x3` and the result's at anything, runs to
    the continuation holding the inputs' as they were and the result's at `out0_4` of them. (It also loads the result
    buffer before storing into it; the loaded value is not used.) -/
theorem sound_kernel (c : Dev nD) (E : Set ℕ) (i : grid0.Coords)
    (arg2 : Memref sig .tc .vmem S128x128 .f32) (harg2 : arg2.IsWhole) (arg3 : Memref sig .tc .vmem S128x128 .f32) (harg3 : arg3.IsWhole)
    (arg4 : Memref sig .tc .vmem S128x128 .f32) (harg4 : arg4.IsWhole) (arg5 : Memref sig .tc .vmem S128x128 .f32) (harg5 : arg5.IsWhole)
    (arg6 : Memref sig .tc .vmem S128x128 .f32) (harg6 : arg6.IsWhole)
    (x0 x1 x2 x3 : Vec F S128x128 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__mls_kernel i arg2 harg2 arg3 harg3 arg4 harg4 arg5 harg5 arg6 harg6) K := by
  simp only [cc0__mls_kernel_eq_skeleton]; unfold cc0__mls_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of the one pipeline on core `c`: the arrays as the region finds them; after the body at point
    `t` each input's buffer at its block and the result's at `out0_4` of the four input blocks; the invariant the
    core's scoped buffers that are no staging buffer, untouched; nothing owed. The normalised rows are read through TWO windows
    and so are the exponentials: each pair deals the array's full share in two halves, one per window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so `sound_kernel` applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch

Two pairs of input windows read one array each. The launch hands the pipeline every array's buffer whole; each shared
one is dealt to its two windows in halves, and since no input array is ever written the halves are never joined back
inside the region. -/

/-- The buffers behind the windows' arrays are three: the normalised rows, the exponentials, the result. -/
theorem arrRefs_eq : Finset.univ.image (Pipeline.arrRef spec0) = [main_v4, main_v5, main_v6].toFinset := by decide

/-- Window by window, the array as the proof data hold it at entry is the array's buffer at the window's share. -/
theorem arr0 (c : Dev nD) :
    ((cfg0.win 0).arr.view.loc (c.tc : Thread nD τ) ↦[(cfg0.win 0).arr.view.set]{(dats m 0 c).share 0} (dats m 0 c).arrAt 0 0 : sProp 𝕄)
      = (((c.tc : Thread nD τ).loc main_v4) ↦{fullShare.left} V m c main_v4) := by
  rw [(arr_whole0 0).set_eq_univ]; rfl
theorem arr1 (c : Dev nD) :
    ((cfg0.win 1).arr.view.loc (c.tc : Thread nD τ) ↦[(cfg0.win 1).arr.view.set]{(dats m 0 c).share 1} (dats m 0 c).arrAt 1 0 : sProp 𝕄)
      = (((c.tc : Thread nD τ).loc main_v4) ↦{fullShare.right} V m c main_v4) := by
  rw [(arr_whole0 1).set_eq_univ]; rfl
theorem arr2 (c : Dev nD) :
    ((cfg0.win 2).arr.view.loc (c.tc : Thread nD τ) ↦[(cfg0.win 2).arr.view.set]{(dats m 0 c).share 2} (dats m 0 c).arrAt 2 0 : sProp 𝕄)
      = (((c.tc : Thread nD τ).loc main_v5) ↦{fullShare.left} V m c main_v5) := by
  rw [(arr_whole0 2).set_eq_univ]; rfl
theorem arr3 (c : Dev nD) :
    ((cfg0.win 3).arr.view.loc (c.tc : Thread nD τ) ↦[(cfg0.win 3).arr.view.set]{(dats m 0 c).share 3} (dats m 0 c).arrAt 3 0 : sProp 𝕄)
      = (((c.tc : Thread nD τ).loc main_v5) ↦{fullShare.right} V m c main_v5) := by
  rw [(arr_whole0 3).set_eq_univ]; rfl
theorem arr4 (c : Dev nD) :
    ((cfg0.win 4).arr.view.loc (c.tc : Thread nD τ) ↦[(cfg0.win 4).arr.view.set]{(dats m 0 c).share 4} (dats m 0 c).arrAt 4 0 : sProp 𝕄)
      = (((c.tc : Thread nD τ).loc main_v6) ↦{fullShare} V m c main_v6) := by
  rw [(arr_whole0 4).set_eq_univ]; rfl

/-- The buffers behind the arrays, one by one. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_v4) ↦{fullShare} V m c main_v4) ∗ (((c.tc : Thread nD τ).loc main_v5) ↦{fullShare} V m c main_v5)
          ∗ (((c.tc : Thread nD τ).loc main_v6) ↦{fullShare} V m c main_v6)) := by
  unfold Pipeline.arrBufs
  exact bigSep_eq_bigSepL_of_eq [main_v4, main_v5, main_v6] arrRefs_eq (by decide) _

/-- The invariant is the same at every point: the core's scoped buffers that are no staging buffer. -/
theorem Phi_eq (c : Dev nD) (t : Fin (cfg0.N + 1)) :
    (dats m 0 c).Φ t = Pipeline.scopedRest (Ix := Unit) (Name := ℕ) (U := UR sig nD τ) (Lvl := ℕ) (Val := Elt F) (cfgs 0).spec c := rfl

/-- The arrays' buffers, whole at the region-entry contents, make the proof data's arrays at entry: a full share is
    its left half beside its right half. -/
theorem arrays_dealt (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0, arr0, arr1, arr2, arr3, arr4]
  iintro ⟨H4, H5, H6⟩
  ihave H4' := (pointsTo_share (PosShare.mem_left_op_right fullShare)).1 $$ H4
  icases H4' with ⟨H4l, H4r⟩
  ihave H5' := (pointsTo_share (PosShare.mem_left_op_right fullShare)).1 $$ H5
  icases H5' with ⟨H5l, H5r⟩
  isplitl [H4l]; · iexact H4l
  isplitl [H4r]; · iexact H4r
  isplitl [H5l]; · iexact H5l
  isplitl [H5r]; · iexact H5r
  iexact H6

/-- The unscoped buffers that are no window's array bypass the region. -/
theorem rest_bypass (c : Dev nD) :
    (Pipeline.unscopedRest (Ix := Unit) (Name := ℕ) (U := UR sig nD τ) (Lvl := ℕ) (cfgs 0).spec c (V m c) : sProp 𝕄)
      ⊢ iprop(emp ∗ Pipeline.unscopedRest (Ix := Unit) (Name := ℕ) (U := UR sig nD τ) (Lvl := ℕ) (cfgs 0).spec c (V m c)) := by
  iintro H
  isplitr
  · iempintro
  · iexact H

/-- The scoped rest enters the invariant, -/
theorem inv_in (c : Dev nD) :
    (iprop(emp ∗ Pipeline.scopedRest (Ix := Unit) (Name := ℕ) (U := UR sig nD τ) (Lvl := ℕ) (Val := Elt F) (cfgs 0).spec c) : sProp 𝕄)
      ⊢ (dats m 0 c).Φ 0 := by
  rw [Phi_eq]
  iintro ⟨-, H⟩
  iexact H

/-- and leaves it after the last point. -/
theorem inv_out (c : Dev nD) :
    ((dats m 0 c).Φ (Fin.last (cfgs 0).N) : sProp 𝕄)
      ⊢ iprop(emp ∗ Pipeline.scopedRest (Ix := Unit) (Name := ℕ) (U := UR sig nD τ) (Lvl := ℕ) (Val := Elt F) (cfgs 0).spec c) := by
  rw [Phi_eq]
  iintro H
  isplitr
  · iempintro
  · iexact H

/-- The bypassing buffers, read against the final memory, hold what the region found in them. -/
theorem rest_read (c : Dev nD) (s' : Phys nD τ sig (Elt F)) :
    (iprop(emp ∗ Pipeline.unscopedRest (Ix := Unit) (Name := ℕ) (U := UR sig nD τ) (Lvl := ℕ) (cfgs 0).spec c (V m c) ∗ SI s') : sProp 𝕄)
      ⊢ |={Set.univ}=> iprop(⌜∀ b ∈ Pipeline.restRefs sig (cfgs 0).spec, s'.mem.mem ((c.tc : Thread nD τ).loc b) = V m c b⌝ ∗ SI s') := by
  iintro ⟨-, HU, HSI⟩
  unfold Pipeline.unscopedRest
  imodintro
  iapply (pointsTo_read_all (Pipeline.restRefs sig (cfgs 0).spec) (fun b => (c.tc : Thread nD τ).loc b) (V m c) s')
  isplitl [HU] <;> iassumption

set_option backward.isDefEq.respectTransparency.types false in
/-- THE RUN: from any memory with zero counters every weakly fair execution of the program terminates, and every final
    state has each window's array at what the write-backs made of it and every other unscoped buffer as the region
    found it. -/
theorem run_main : θ_run defs (onTc (τ := τ) (main (F := F))) (s₀ m ρ) (Pipeline.FramePost cfgs (dats m) 0 (V m)) := by
  classical
  exact Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj))
    (hu₀ := .rfl)
    (V := V m) (hmain := hmain m Variants.none) (hsplit := arrays_dealt m)
    (X := fun _ => iprop(emp)) (Y := fun _ => iprop(emp))
    (Z := fun c => Pipeline.unscopedRest (Ix := Unit) (Name := ℕ) (U := UR sig nD τ) (Lvl := ℕ) (cfgs 0).spec c (V m c))
    (hX := rest_bypass m) (hin := inv_in m) (hout := inv_out m)
    (QY := fun c s => ∀ b ∈ Pipeline.restRefs sig (cfgs 0).spec, s.mem ((c.tc : Thread nD τ).loc b) = V m c b)
    (hY := rest_read m)
    (hQ := fun s h c => ⟨(h c).1, (h c).2⟩)

/-- info: 'Cert.KernelIdeal.Region.run_main' depends on axioms: [propext, Classical.choice, Quot.sound] -/
#guard_msgs in #print axioms run_main

/-! ## The frame -/

theorem main_arg0_rest : main_arg0 ∈ Pipeline.restRefs sig spec0 :=
  Pipeline.mem_restRefs_of main_arg0 rfl (by decide)
theorem main_arg1_rest : main_arg1 ∈ Pipeline.restRefs sig spec0 :=
  Pipeline.mem_restRefs_of main_arg1 rfl (by decide)

/-- The program runs to the end, faults nowhere, and leaves its two argument arrays as launched: no window stages them
    and no host operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 main_arg0_rest).trans (V_main_arg0 m c),
    ((h c).2 main_arg1 main_arg1_rest).trans (V_main_arg1 m c)⟩) (run_main m ρ)

end Cert.KernelIdeal.Region

end
-- ==== Proof.MlsSpec.lean ====
/-
  The pairwise score, stated once, index by index, with no program in sight.

  Two arrays of 1024 rows and 128 lanes are given: `mu` (the row-normalised features) and `sg`
  (the exponentiated log-scales). For a pair of rows (i, j) the score is

      - Σ_{d < 128} ( (mu[i,d] - mu[j,d])² / (ε + (sg[i,d] + sg[j,d])) + log (sg[i,d] + sg[j,d]) )

  on the extended reals, where ε is the value of one fixed 32-bit word (never evaluated: both programs
  carry the same word). An entry depends on FOUR lane vectors only — row i and row j of `mu`, row i and
  row j of `sg` — so it is stated as a function `pairScore` of four lane vectors; `score` reads the
  rows out of the two arrays. Any 128 × 128 tile of the result is the same `pairScore` over the rows
  the tile's coordinates name, which is what makes a blocked computation equal to the whole one.

  Also here: the two row-wise preparations both programs apply before the pairwise stage,
  `muOf` (divide each row by the larger of its Euclidean norm and a fixed floor) and `sgOf` (exp), as
  compositions of host operations over the literal shapes; and the two small laws that join the two
  spellings of "minus the sum": `0 - x = -x`, and the zero word denotes `0`.
-/
import Idealize.ShloMosaic.PureOps.Ideal
import Idealize.ShloMosaic.PureOps.Ideal.Laws
import Idealize.ShloMosaic.Lib.ValueIdx

noncomputable section

open scoped BigOperators

namespace Cert.Mls

open Idealize.ShloMosaic Idealize.ShloMosaic.ValueIdx

/-! ## The score -/

/-- One entry of the result from the four lane vectors it depends on: rows `a`, `b` of the normalised
    features and rows `s`, `t` of the scales. -/
def pairScore (a b s t : Fin 128 → EReal) : EReal :=
  -∑ d : Fin 128, (Ideal.div ((a d - b d) * (a d - b d)) (Ideal.ofBits .f32 0x2EDBE6FF#32 + (s d + t d))
      + Ideal.log (s d + t d))

/-- Row `i` of a 1024 × 128 array, as a lane vector. -/
def row (x : (⟨2, ![1024, 128]⟩ : Shape).Idx → EReal) (i : Fin 1024) : Fin 128 → EReal := fun d => x (ix2 i d)

/-- The whole result: entry (i, j) is `pairScore` of rows i and j of `mu` and rows i and j of `sg`. -/
def score (mu sg : (⟨2, ![1024, 128]⟩ : Shape).Idx → EReal) : (⟨2, ![1024, 1024]⟩ : Shape).Idx → EReal :=
  fun ij => pairScore (row mu (ij 0)) (row mu (ij 1)) (row sg (ij 0)) (row sg (ij 1))

/-- The score at the index built from two row numbers. -/
theorem score_ix2 (mu sg : (⟨2, ![1024, 128]⟩ : Shape).Idx → EReal) (i j : Fin 1024) :
    score mu sg (ix2 i j) = pairScore (row mu i) (row mu j) (row sg i) (row sg j) := rfl

/-! ## The two laws between the spellings of "minus the sum" -/

/-- Subtracting from zero is negating, on every extended real. -/
theorem zero_sub_eq_neg (x : EReal) : (0 : EReal) - x = -x := by
  rw [sub_eq_add_neg, zero_add]

/-- The all-zero f32 word denotes zero. -/
theorem zero_word : Ideal.ofBits .f32 0x00000000#32 = (0 : EReal) := Ideal.ofBits_zero_f32

/-- A difference from the zero word's value is the negation. -/
theorem zero_word_sub (x : EReal) : Ideal.ofBits .f32 0x00000000#32 - x = -x := by
  rw [zero_word, zero_sub_eq_neg]

/-- A sum started from the zero word's value is the sum. -/
theorem zero_word_add (x : EReal) : Ideal.ofBits .f32 0x00000000#32 + x = x := by
  rw [zero_word, zero_add]

/-! ## The row-wise preparations, as compositions of host operations -/

theorem rowSum_reduces : (⟨2, ![1024, 128]⟩ : Shape).ReducesTo ([1] : List (Fin 2)) ⟨1, ![1024]⟩ := by decide
theorem scalar_nonempty : 0 < (⟨0, ![]⟩ : Shape).numel := by decide
theorem keepdims_bcast :
    (⟨1, ![1024]⟩ : Shape).BroadcastsInDim ⟨2, ![1024, 1]⟩ (![0] : Fin 1 → Fin 2) := by decide
theorem floor_bcast :
    (⟨0, ![]⟩ : Shape).BroadcastsInDim ⟨2, ![1024, 1]⟩ (![] : Fin 0 → Fin 2) := by decide
theorem column_bcast :
    (⟨2, ![1024, 1]⟩ : Shape).BroadcastsInDim ⟨2, ![1024, 128]⟩ (![0, 1] : Fin 2 → Fin 2) := by decide

/-- Each row divided by the larger of its Euclidean norm and the floor word's value: the host operations
    multiply, row sum from zero, keep the axis, square root, maximum with the broadcast floor, broadcast
    along the lanes, divide — composed in that order. -/
def muOf (x : FVec Ideal ⟨2, ![1024, 128]⟩ .f32) : FVec Ideal ⟨2, ![1024, 128]⟩ .f32 :=
  Host.divf x
    (broadcastInDim ⟨2, ![1024, 128]⟩ ![0, 1] column_bcast
      (maximumf
        (Host.sqrt
          (broadcastInDim ⟨2, ![1024, 1]⟩ ![0] keepdims_bcast
            (Host.reduceAdd (mulf x x) (constant (F := Ideal) ⟨0, ![]⟩ .f32 0x00000000#32) rowSum_reduces
              scalar_nonempty)))
        (broadcastInDim ⟨2, ![1024, 1]⟩ ![] floor_bcast (constant (F := Ideal) ⟨0, ![]⟩ .f32 0x2B8CBCCC#32))))

/-- The scales: the exponential of the log-scales, entry by entry. -/
def sgOf (x : FVec Ideal ⟨2, ![1024, 128]⟩ .f32) : FVec Ideal ⟨2, ![1024, 128]⟩ .f32 := Host.exp x

end Cert.Mls

end
-- ==== Proof.MlsPayload.lean ====
/-
  One 128 × 128 tile of the kernel's arithmetic, read at an entry.

  The tile's body is handed four 128 × 128 blocks: rows of `mu` for the tile's row range (`x0`) and for
  its column range (`x1`), and the same two row ranges of `sg` (`x2`, `x3`). It spreads the first of each
  pair along a new middle axis and the second along a new leading axis, so that at (p, q, d) of the
  128 × 128 × 128 intermediate it holds row p of the first block and row q of the second at lane d;
  forms (a - b)² / (ε + (s + t)) + log (s + t) there; sums the lanes from the zero word; and subtracts
  the sum from the zero word. Entry (p, q) of the tile is therefore `Cert.Mls.pairScore` of row p of
  `x0`, row q of `x1`, row p of `x2` and row q of `x3`.
-/
import proofs.«149449_j12326556139627_1_alg».proof.Proof.Gen.KernelIdeal.Skeleton
import proofs.«149449_j12326556139627_1_alg».proof.Proof.MlsSpec
import Idealize.ShloMosaic.Lib.Pipeline.Value
import Idealize.ShloMosaic.PureOps.Ideal.Laws

noncomputable section

open scoped BigOperators

namespace Cert.Mls.Payload

open Cert.KernelIdeal Idealize.ShloMosaic Idealize.ShloMosaic.ValueIdx Cert.Mls

/-! ## The layout steps read at an index -/

/-- A block whose rows are spread along a new MIDDLE axis reads, at (p, q, d), its entry (p, d):
    the reshape 128×128 → 128×1×128 keeps the row-major position, and the broadcast reads the unit
    axis at 0. -/
theorem spread_middle {α : Type} (v : S128x128.Idx → α) (h0 : S128x128.ShapeCasts S128x128)
    (h1 : S128x128.ShapeCasts S128x1x128) (h2 : S128x1x128.Broadcasts S128x128x128) (p q d : Fin 128) :
    broadcastTo S128x128x128 (shapeCast S128x1x128 (shapeCast S128x128 v h0) h1) h2 (ix3 p q d) = v (ix2 p d) := by
  rw [shapeCast_self]
  refine (broadcastTo_apply _ h2 (ix3 p q d) (ix3 p (0 : Fin 1) d) (fun a => ?_)).trans ?_
  · match a with
    | ⟨0, _⟩ => show p.val = if (128 : Nat) = 1 then 0 else p.val; rw [if_neg (by decide)]
    | ⟨1, _⟩ => show 0 = if (1 : Nat) = 1 then 0 else q.val; rw [if_pos rfl]
    | ⟨2, _⟩ => show d.val = if (128 : Nat) = 1 then 0 else d.val; rw [if_neg (by decide)]
  · refine shapeCast_apply v h1 (ix3 p (0 : Fin 1) d) (ix2 p d) ?_
    rw [Shape.rowMajor_val_two, Shape.rowMajor_val_three]
    show p.val * 128 + d.val = (p.val * 1 + 0) * 128 + d.val
    omega

/-- A block whose rows are spread along a new LEADING axis reads, at (p, q, d), its entry (q, d). -/
theorem spread_leading {α : Type} (v : S128x128.Idx → α) (h0 : S128x128.ShapeCasts S128x128)
    (h1 : S128x128.ShapeCasts S1x128x128) (h2 : S1x128x128.Broadcasts S128x128x128) (p q d : Fin 128) :
    broadcastTo S128x128x128 (shapeCast S1x128x128 (shapeCast S128x128 v h0) h1) h2 (ix3 p q d) = v (ix2 q d) := by
  rw [shapeCast_self]
  refine (broadcastTo_apply _ h2 (ix3 p q d) (ix3 (0 : Fin 1) q d) (fun a => ?_)).trans ?_
  · match a with
    | ⟨0, _⟩ => show 0 = if (1 : Nat) = 1 then 0 else p.val; rw [if_pos rfl]
    | ⟨1, _⟩ => show q.val = if (128 : Nat) = 1 then 0 else q.val; rw [if_neg (by decide)]
    | ⟨2, _⟩ => show d.val = if (128 : Nat) = 1 then 0 else d.val; rw [if_neg (by decide)]
  · refine shapeCast_apply v h1 (ix3 (0 : Fin 1) q d) (ix2 q d) ?_
    rw [Shape.rowMajor_val_two, Shape.rowMajor_val_three]
    show q.val * 128 + d.val = (0 * 128 + q.val) * 128 + d.val
    omega

/-- The sum over the lane axis of a 128 × 128 × 128 array, from the zero word, at (p, q): the sum over d
    of its entries (p, q, d). -/
theorem lane_sum (src : FVec Ideal S128x128x128 .f32) (h : S128x128x128.Reduces [2] S128x128)
    (hφ : FKind.Formats .f32) (hacc : (0x00000000#32 : BitVec 32) = 0x00000000#32) (p q : Fin 128) :
    multiReduction (F := Ideal) .add [2] S128x128 src 0x00000000#32 h hφ hacc (ix2 p q)
      = ∑ d : Fin 128, src (ix3 p q d) :=
  (Ideal.multiReduction_add_single src 0x00000000#32 h hφ hacc (ix2 p q)).trans
    (Finset.sum_congr rfl fun d _ => congrArg src (funext fun a => Fin.ext (by
      match a with
      | ⟨0, _⟩ => rfl
      | ⟨1, _⟩ => rfl
      | ⟨2, _⟩ => rfl)))

/-- The zero word minus an array that went through a trailing unit axis and back is the negation. -/
theorem zero_sub_casts (w : FVec Ideal S128x128 .f32) (h : S128x128.ShapeCasts S128x128x1)
    (h' : S128x128x1.ShapeCasts S128x128) (p q : Fin 128) :
    subf (broadcast S128x128 (Scalar.ofBits (F := Ideal) .f32 0x00000000#32))
      (shapeCast S128x128 (shapeCast S128x128x1 w h) h') (ix2 p q) = -(w (ix2 p q)) := by
  rw [shapeCast_shapeCast]
  exact zero_word_sub _

/-! ## The tile at an entry -/

/-- Entry (p, q) of the tile is the pair score of row p of the first block of each pair and row q of the
    second. -/
theorem tile_apply (x0 x1 x2 x3 : Vec Ideal S128x128 .f32) (p q : Fin 128) :
    Cert.KernelIdeal.Gen.k0_pay1 (F := Ideal) x0 x1 x2 x3 (ix2 p q)
      = pairScore (fun d => x0 (ix2 p d)) (fun d => x1 (ix2 q d)) (fun d => x2 (ix2 p d))
          (fun d => x3 (ix2 q d)) := by
  unfold Cert.KernelIdeal.Gen.k0_pay1 pairScore
  refine (zero_sub_casts _ _ _ p q).trans (congrArg Neg.neg ?_)
  refine (lane_sum _ _ _ _ p q).trans (Finset.sum_congr rfl fun d _ => ?_)
  show Ideal.div ((_ - _) * (_ - _)) (_ + (_ + _)) + Ideal.log (_ + _) = _
  rw [spread_middle, spread_leading, spread_middle, spread_leading]
  rfl

end Cert.Mls.Payload

end
-- ==== Proof.ScoreArray.lean ====
/-
  The idealized kernel's result array as one function of its arguments.

  Point (i, j) of the 8 × 8 grid writes tile (i, j) of the 1024 × 1024 result; entry (p, q) of that tile is the pairwise
  score of row 128 i + p against row 128 j + q, computed from row blocks i and j of the normalised rows and of the
  exponentials. The 64 tiles cover the result, so after the run the whole array is `score` of the two host-side arrays,
  which are `muOf` and `sgOf` of the arguments.
-/
import proofs.«149449_j12326556139627_1_alg».proof.Proof.RegionIdeal
import proofs.«149449_j12326556139627_1_alg».proof.Proof.MlsSpec
import proofs.«149449_j12326556139627_1_alg».proof.Proof.MlsPayload
import Idealize.ShloMosaic.Lib.Pipeline.Value
import Idealize.ShloMosaic.Lib.ValueIdx
import Idealize.ShloMosaic.Lib.StableHlo.Run

set_option maxRecDepth 16384

noncomputable section

namespace Cert.KernelIdeal.ScoreArray

open Cert.KernelIdeal Cert.KernelIdeal.Gen Cert.KernelIdeal.Region Idealize.ShloMosaic Idealize.ShloMosaic.TcCoe Idealize.SL.Sem
open Idealize.ShloMosaic.Pipeline (Dat)
open Idealize.ShloMosaic.ValueIdx Cert.Mls

variable (m : (ℓ : Loc nD τ sig) → Buf (Elt Ideal) ℓ) (ρ : Dev nD → PrngReg)

/-! ## The two arrays the region reads -/

/-- The first: the rows of the first argument, each divided by the larger of its Euclidean norm and a floor. -/
theorem rows_at_entry (c : Dev nD) :
    (V m c main_v4 : S1024x128.Idx → EReal) = muOf (m ((c : Thread nD τ).loc main_arg0)) := by
  dsimp only [V]
  simp only [hostOps0, hostOps0_1, List.flatten_cons, List.flatten_nil, List.append_nil, List.cons_append, List.nil_append]
  after_results
  rfl

/-- The second: the exponentials of the second argument. -/
theorem exps_at_entry (c : Dev nD) :
    (V m c main_v5 : S1024x128.Idx → EReal) = sgOf (m ((c : Thread nD τ).loc main_arg1)) := by
  dsimp only [V]
  simp only [hostOps0, hostOps0_1, List.flatten_cons, List.flatten_nil, List.append_nil, List.cons_append, List.nil_append]
  after_results
  rfl

/-! ## The index maps -/

theorem hz : (![0, 0] : Fin 2 → Nat) = fun _ => 0 := funext fun a => by fin_cases a <;> rfl

/-- At every grid point: windows 0 and 2 sit at the tile's row block, windows 1 and 3 at the row block numbered by the
    tile's COLUMN block, all four at column block 0; the tile's block indices are below 8. -/
theorem tile_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = win0_4.index t (1 : Fin 2) ∧ win0_3.index t (1 : Fin 2) = 0
    ∧ win0_4.index t (0 : Fin 2) ≤ 7 ∧ win0_4.index t (1 : Fin 2) ≤ 7 :=
  (by decide +kernel : ∀ t : Fin grid0.N, _)

/-- Every tile is some point's. -/
theorem tile_onto : ∀ (q0 q1 : Fin 8), ∃ t : Fin cfg0.N, win0_4.index t = ![q0.val, q1.val] :=
  (by decide +kernel : ∀ (q0 q1 : Fin 8), ∃ t : Fin grid0.N, win0_4.index t = ![q0.val, q1.val])

/-! ## Each input block, read where the tile's rectangle says -/

/-- Row `p` of window 0's block is the normalised row whose number is the tile entry's row. -/
theorem rows_i (c : Dev nD) (t : Fin cfg0.N) (j : S128x128.Idx) (d : Fin 128) :
    iblk m c 0 t (ix2 (j 0) d) = V m c main_v4 (ix2 ((((cfg0.win 4).blk t).view.emb j) 0) d) := by
  obtain ⟨e0, e1, -, -, -, -, -, -, -, -⟩ := tile_indices t
  show V m c main_v4 (((cfg0.win 0).blk t).view.emb (ix2 (j 0) d)) = V m c main_v4 (ix2 ((((cfg0.win 4).blk t).view.emb j) 0) d)
  refine congrArg _ ?_
  funext a; apply Fin.ext
  match a with
  | ⟨0, _⟩ => show win0_0.index t (0 : Fin 2) * 128 + 1 * (j 0).val = win0_4.index t (0 : Fin 2) * 128 + 1 * (j 0).val; omega
  | ⟨1, _⟩ => show win0_0.index t (1 : Fin 2) * 128 + 1 * d.val = d.val; omega

/-- Row `q` of window 1's block is the normalised row whose number is the tile entry's column. -/
theorem rows_j (c : Dev nD) (t : Fin cfg0.N) (j : S128x128.Idx) (d : Fin 128) :
    iblk m c 1 t (ix2 (j 1) d) = V m c main_v4 (ix2 ((((cfg0.win 4).blk t).view.emb j) 1) d) := by
  obtain ⟨-, -, e0, e1, -, -, -, -, -, -⟩ := tile_indices t
  show V m c main_v4 (((cfg0.win 1).blk t).view.emb (ix2 (j 1) d)) = V m c main_v4 (ix2 ((((cfg0.win 4).blk t).view.emb j) 1) d)
  refine congrArg _ ?_
  funext a; apply Fin.ext
  match a with
  | ⟨0, _⟩ => show win0_1.index t (0 : Fin 2) * 128 + 1 * (j 1).val = win0_4.index t (1 : Fin 2) * 128 + 1 * (j 1).val; omega
  | ⟨1, _⟩ => show win0_1.index t (1 : Fin 2) * 128 + 1 * d.val = d.val; omega

/-- The same two reads of the exponentials, through windows 2 and 3. -/
theorem exps_i (c : Dev nD) (t : Fin cfg0.N) (j : S128x128.Idx) (d : Fin 128) :
    iblk m c 2 t (ix2 (j 0) d) = V m c main_v5 (ix2 ((((cfg0.win 4).blk t).view.emb j) 0) d) := by
  obtain ⟨-, -, -, -, e0, e1, -, -, -, -⟩ := tile_indices t
  show V m c main_v5 (((cfg0.win 2).blk t).view.emb (ix2 (j 0) d)) = V m c main_v5 (ix2 ((((cfg0.win 4).blk t).view.emb j) 0) d)
  refine congrArg _ ?_
  funext a; apply Fin.ext
  match a with
  | ⟨0, _⟩ => show win0_2.index t (0 : Fin 2) * 128 + 1 * (j 0).val = win0_4.index t (0 : Fin 2) * 128 + 1 * (j 0).val; omega
  | ⟨1, _⟩ => show win0_2.index t (1 : Fin 2) * 128 + 1 * d.val = d.val; omega

theorem exps_j (c : Dev nD) (t : Fin cfg0.N) (j : S128x128.Idx) (d : Fin 128) :
    iblk m c 3 t (ix2 (j 1) d) = V m c main_v5 (ix2 ((((cfg0.win 4).blk t).view.emb j) 1) d) := by
  obtain ⟨-, -, -, -, -, -, e0, e1, -, -⟩ := tile_indices t
  show V m c main_v5 (((cfg0.win 3).blk t).view.emb (ix2 (j 1) d)) = V m c main_v5 (ix2 ((((cfg0.win 4).blk t).view.emb j) 1) d)
  refine congrArg _ ?_
  funext a; apply Fin.ext
  match a with
  | ⟨0, _⟩ => show win0_3.index t (0 : Fin 2) * 128 + 1 * (j 1).val = win0_4.index t (1 : Fin 2) * 128 + 1 * (j 1).val; omega
  | ⟨1, _⟩ => show win0_3.index t (1 : Fin 2) * 128 + 1 * d.val = d.val; omega

/-! ## What a point writes back -/

/-- The body's result at any tile entry, in terms of the entry's two coordinates. -/
theorem tile_at (x0 x1 x2 x3 : Vec Ideal S128x128 .f32) (j : S128x128.Idx) :
    k0_pay1 (F := Ideal) x0 x1 x2 x3 j
      = pairScore (fun d => x0 (ix2 (j 0) d)) (fun d => x1 (ix2 (j 1) d)) (fun d => x2 (ix2 (j 0) d)) (fun d => x3 (ix2 (j 1) d)) := by
  obtain ⟨p, q, rfl⟩ : ∃ (p q : Fin 128), j = ix2 p q := ⟨j 0, j 1, eq_ix2 j⟩
  exact Cert.Mls.Payload.tile_apply x0 x1 x2 x3 p q

/-- Point `t` writes back tile `t` of `score` of the two arrays the region reads. -/
theorem tile_written (c : Dev nD) (t : Fin cfg0.N) :
    (dats m 0 c).flushed 4 t = ((cfg0.win 4).blk t).view.read (Elt Ideal) (score (V m c main_v4) (V m c main_v5)) := by
  show (cfg0.win 4).cut (grid0.coords t) ((dats m 0 c).after 4 t) = _
  rw [after0_4]
  unfold out0_4
  rw [View.canon_unit_zero hz]
  simp only [View.ld_unit_zero (S := S128x128) hz]
  funext j
  show k0_pay1 (F := Ideal) (iblk m c 0 t) (iblk m c 1 t) (iblk m c 2 t) (iblk m c 3 t) j
    = score (V m c main_v4) (V m c main_v5) (((cfg0.win 4).blk t).view.emb j)
  refine (tile_at (iblk m c 0 t) (iblk m c 1 t) (iblk m c 2 t) (iblk m c 3 t) j).trans ?_
  have h0 : (fun d : Fin 128 => iblk m c 0 t (ix2 (j 0) d)) = row (V m c main_v4) ((((cfg0.win 4).blk t).view.emb j) 0) :=
    funext fun d => rows_i m c t j d
  have h1 : (fun d : Fin 128 => iblk m c 1 t (ix2 (j 1) d)) = row (V m c main_v4) ((((cfg0.win 4).blk t).view.emb j) 1) :=
    funext fun d => rows_j m c t j d
  have h2 : (fun d : Fin 128 => iblk m c 2 t (ix2 (j 0) d)) = row (V m c main_v5) ((((cfg0.win 4).blk t).view.emb j) 0) :=
    funext fun d => exps_i m c t j d
  have h3 : (fun d : Fin 128 => iblk m c 3 t (ix2 (j 1) d)) = row (V m c main_v5) ((((cfg0.win 4).blk t).view.emb j) 1) :=
    funext fun d => exps_j m c t j d
  rw [h0, h1, h2, h3]
  rfl

/-! ## The tiles cover the result -/

theorem mem_tile (t : Fin cfg0.N) (i : S1024x1024.Idx) :
    i ∈ ((cfg0.win 4).blk t).view.set ↔ ∀ a : Fin 2, win0_4.index t a * S128x128.size a ≤ (i a).val ∧ (i a).val < win0_4.index t a * S128x128.size a + S128x128.size a := by
  show i ∈ ((View.whole main_v6).slice (win0_4.rect t)).set ↔ _
  rw [View.set_slice_whole, Rect.mem_set_unit]
  exact Iff.rfl

/-- Entry (r, s) of the result lies in the tile of row block r / 128 and column block s / 128. -/
theorem tiles_cover (i : S1024x1024.Idx) :
    ∃ t : Fin cfg0.N, (cfg0.win 4).flush t = true ∧ i ∈ ((cfg0.win 4).blk t).view.set := by
  have hi0 : (i 0).val < 1024 := (i 0).isLt
  have hi1 : (i 1).val < 1024 := (i 1).isLt
  obtain ⟨t, ht⟩ := tile_onto ⟨(i 0).val / 128, by omega⟩ ⟨(i 1).val / 128, by omega⟩
  have q0 : win0_4.index t (0 : Fin 2) = (i 0).val / 128 := congrFun ht 0
  have q1 : win0_4.index t (1 : Fin 2) = (i 1).val / 128 := congrFun ht 1
  refine ⟨t, flush0_4 t, ?_⟩
  rw [mem_tile]
  intro a
  match a with
  | ⟨0, _⟩ => show win0_4.index t (0 : Fin 2) * 128 ≤ (i 0).val ∧ (i 0).val < win0_4.index t (0 : Fin 2) * 128 + 128; omega
  | ⟨1, _⟩ => show win0_4.index t (1 : Fin 2) * 128 ≤ (i 1).val ∧ (i 1).val < win0_4.index t (1 : Fin 2) * 128 + 128; omega

/-! ## The result array, and the run read -/

/-- After the last write-back the result array is `score` of the normalised rows and the exponentials of the arguments. -/
theorem result_array (c : Dev nD) :
    (dats m 0 c).arrAt 4 cfg0.N = score (muOf (m ((c : Thread nD τ).loc main_arg0))) (sgOf (m ((c : Thread nD τ).loc main_arg1))) := by
  rw [← rows_at_entry m c, ← exps_at_entry m c]
  exact (dats m 0 c).arrAt_eq_of_cover 4 (score (V m c main_v4) (V m c main_v5)) (fun t _ => tile_written m c t) tiles_cover

/-- The run: the result array ends at `score`, the two arguments unchanged. -/
theorem run : θ_run defs (onTc (τ := τ) (main (F := Ideal))) ⟨m, fun _ => 0, ρ⟩ fun r => ∀ c : Dev nD,
      r.2.mem ((c.tc : Thread nD τ).loc main_v6) = score (muOf (m ((c.tc : Thread nD τ).loc main_arg0))) (sgOf (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 4).trans (result_array m c),
      ((h c).2 main_arg0 main_arg0_rest).trans (V_main_arg0 m c),
      ((h c).2 main_arg1 main_arg1_rest).trans (V_main_arg1 m c)⟩)
    (run_main m ρ)

end Cert.KernelIdeal.ScoreArray

end
-- ==== Proof.MlsReference.lean ====
/-
  The reference computes the pairwise score.

  Read one operation at a time, the reference first prepares `mu` (each row of the first argument
  divided by the larger of its norm and a floor) and `sg` (the exponential of the second argument),
  then broadcasts rows i and j against each other over a 1024 × 1024 × 128 array, forms
  (mu_i - mu_j)² / (ε + (sg_i + sg_j)) + log (sg_i + sg_j) lane by lane, sums the 128 lanes from the
  zero word, and negates. At entry (i, j) and lane d every broadcast reads row i or row j at lane d,
  so the summand is exactly the summand of `Cert.Mls.pairScore` over those four rows; the sum started
  from the zero word's value is the plain sum; the negation is the negation.
-/
import proofs.«149449_j12326556139627_1_alg».proof.Proof.Gen.ReferenceIdeal.Read
import proofs.«149449_j12326556139627_1_alg».proof.Proof.MlsSpec

noncomputable section

open scoped BigOperators

namespace Cert.Mls.Reference

open Cert.ReferenceIdeal Cert.ReferenceIdeal.Gen Cert.ReferenceIdeal.Read Idealize.ShloMosaic
  Idealize.ShloMosaic.ValueIdx Cert.Mls

/-- The reference's fifth stage (the divide) is `muOf` of the first argument: the same host operations
    composed in the same order. -/
theorem stage_mu (x0 : (⟨S1024x128, .f32⟩ : BufTy).Contents (Elt Ideal)) :
    val_main_v4 (F := Ideal) x0 = muOf x0 := rfl

/-- The reference's sixth stage (the exponential) is `sgOf` of the second argument. -/
theorem stage_sg (x1 : (⟨S1024x128, .f32⟩ : BufTy).Contents (Elt Ideal)) :
    val_main_v5 (F := Ideal) x1 = sgOf x1 := rfl

/-! ## Which row and lane each broadcast reads at (i, j, d) -/

/-- Through the two broadcasts that spread rows along the SECOND axis, entry (i, j, d) reads (i, d). -/
theorem idx_first_mu (i j : Fin 1024) (d : Fin 128) :
    idx_main_v11 (idx_main_v13 (idx_main_v22 (ix2 i j) d)) = ix2 i d :=
  funext fun a => Fin.ext (by match a with | ⟨0, _⟩ => rfl | ⟨1, _⟩ => rfl)

/-- Through the two broadcasts that spread rows along the FIRST axis, entry (i, j, d) reads (j, d). -/
theorem idx_second_mu (i j : Fin 1024) (d : Fin 128) :
    idx_main_v12 (idx_main_v14 (idx_main_v22 (ix2 i j) d)) = ix2 j d :=
  funext fun a => Fin.ext (by match a with | ⟨0, _⟩ => rfl | ⟨1, _⟩ => rfl)

/-- The same for the scales: (i, d) … -/
theorem idx_first_sg (i j : Fin 1024) (d : Fin 128) :
    idx_main_v6 (idx_main_v8 (idx_main_v22 (ix2 i j) d)) = ix2 i d :=
  funext fun a => Fin.ext (by match a with | ⟨0, _⟩ => rfl | ⟨1, _⟩ => rfl)

/-- … and (j, d). -/
theorem idx_second_sg (i j : Fin 1024) (d : Fin 128) :
    idx_main_v7 (idx_main_v9 (idx_main_v22 (ix2 i j) d)) = ix2 j d :=
  funext fun a => Fin.ext (by match a with | ⟨0, _⟩ => rfl | ⟨1, _⟩ => rfl)

/-! ## The summand, then the entry -/

/-- The reference's summand at (i, j, d): the squared difference of the two rows of `mu` at lane d over
    ε plus the two scales there, plus the logarithm of the two scales' sum. -/
theorem summand (x0 x1 : (⟨S1024x128, .f32⟩ : BufTy).Contents (Elt Ideal)) (i j : Fin 1024) (d : Fin 128) :
    val_main_v21 (F := Ideal) x0 x1 (idx_main_v22 (ix2 i j) d)
      = Ideal.div ((row (muOf x0) i d - row (muOf x0) j d) * (row (muOf x0) i d - row (muOf x0) j d))
          (Ideal.ofBits .f32 0x2EDBE6FF#32 + (row (sgOf x1) i d + row (sgOf x1) j d))
        + Ideal.log (row (sgOf x1) i d + row (sgOf x1) j d) := by
  rw [val_main_v21_apply, val_main_v19_apply, val_main_v20_apply, val_main_v16_apply, val_main_v15_apply,
    val_main_v13_apply, val_main_v14_apply, val_main_v11_apply, val_main_v12_apply, val_main_v18_apply,
    val_main_v17_apply, val_main_v10_apply, val_main_v8_apply, val_main_v9_apply, val_main_v6_apply,
    val_main_v7_apply, val_main_cst_0_apply, idx_first_mu, idx_second_mu, idx_first_sg, idx_second_sg,
    stage_mu, stage_sg]
  rfl

/-- The reference's result is the score of the prepared arrays, entry by entry. -/
theorem result_eq_score (x0 x1 : (⟨S1024x128, .f32⟩ : BufTy).Contents (Elt Ideal)) :
    val_main_v23 (F := Ideal) x0 x1 = score (muOf x0) (sgOf x1) := by
  funext ij
  obtain ⟨i, j, rfl⟩ : ∃ (i j : Fin 1024), ij = ix2 i j := ⟨ij 0, ij 1, eq_ix2 ij⟩
  rw [score_ix2, val_main_v23_apply, val_main_v22_apply, val_main_cst_1_apply]
  unfold pairScore
  refine (congrArg Neg.neg (zero_word_add _)).trans ?_
  exact congrArg Neg.neg (Finset.sum_congr rfl fun d _ => summand x0 x1 i j d)

end Cert.Mls.Reference

end
-- ==== Proof.lean ====
/-
  A pairwise likelihood score, tiled against whole.

  Both programs first make, on the host and by the same operations, `mu` — each row of the first argument divided by the
  larger of its Euclidean norm and a small floor — and `sg`, the exponentials of the second argument, both 1024 × 128.
  The result is the 1024 × 1024 array

      out[i, j] = − ∑_{d < 128} ( (mu[i,d] − mu[j,d])² / (ε + (sg[i,d] + sg[j,d])) + log (sg[i,d] + sg[j,d]) ).

  The kernel computes it tile by tile on an 8 × 8 grid (point (i, j) reads row blocks i and j of `mu` and of `sg`, sums over
  `d` along the lanes, and writes tile (i, j) as `0 − sum`); the reference broadcasts both operands to 1024 × 1024 × 128,
  sums over the last axis and negates. On the extended reals the two are the same function entry by entry: the operations
  are the same total functions on both sides, a sum does not depend on how it is grouped, and `0 − x = −x`. No finiteness
  of the inputs is needed for that, so the precondition is never opened.

  The frames: each kernel program runs to the end, faults nowhere and leaves its arguments alone — the arguments are staged
  by no window and written by no host operation —; the reference's frame is its run with the result dropped. The kernel's
  idealization rewrote nothing, so there is nothing to preserve.
-/
import proofs.«149449_j12326556139627_1_alg».proof.Defs
import proofs.«149449_j12326556139627_1_alg».proof.Proof.Gen.Kernel
import proofs.«149449_j12326556139627_1_alg».proof.Proof.Gen.KernelIdeal
import proofs.«149449_j12326556139627_1_alg».proof.Proof.Gen.ReferenceIdeal
import proofs.«149449_j12326556139627_1_alg».proof.Proof.Gen.Pre_finite_inputs
import proofs.«149449_j12326556139627_1_alg».proof.Proof.RegionBits
import proofs.«149449_j12326556139627_1_alg».proof.Proof.RegionIdeal
import proofs.«149449_j12326556139627_1_alg».proof.Proof.ScoreArray
import proofs.«149449_j12326556139627_1_alg».proof.Proof.MlsReference
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Region.frame m ρ

/-- So does its idealization. -/
theorem frame_kernelIdeal : Cert.frame_KernelIdeal := fun m ρ _ => Cert.KernelIdeal.Region.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at `score (muOf a) (sgOf b)`: the
    kernel's by its tiles covering the array, the reference's by reading its broadcast-and-reduce term at an index. -/
theorem algebraic : Cert.algebraic_KernelIdeal_ReferenceIdeal := by
  intro m ρ m' ρ' _ hagree
  refine ⟨_, Cert.KernelIdeal.ScoreArray.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v23_eq, Cert.Mls.Reference.result_eq_score, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
